-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_keep" .f32 0x3F8E38E4#32 ((8388608 / 7549747 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S100000x128 .f32) (main_arg5 : FVec F S64x128 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x128 .f32 := Host.absf main_arg4
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩

abbrev nBuf : Space → Nat
  | .hbm => 26
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x128, .f32⟩
  | .hbm, ⟨5, _⟩ => ⟨S64x128, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x64, .f32⟩
  | .hbm, ⟨24, _⟩ => ⟨S1x64, .f32⟩
  | .hbm, ⟨25, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S64x128_S128x64_1_0 : S64x128.Transposes [1, 0] S128x64
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  natLt_1_32 : 1 < 32
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v12) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S10000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S64x128 : Shape := ⟨2, ![64, 128]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S100000x128, .f32⟩
  | .hbm, ⟨5, _⟩ => ⟨S64x128, .f32⟩
  | .hbm, ⟨6, _⟩ => ⟨S64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x1, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S100000x128, .f32⟩
  | .hbm, ⟨25, _⟩ => ⟨S100000x128, .i1⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S128x64, .f32⟩
  | .hbm, ⟨32, _⟩ => ⟨S100000x64, .f32⟩
  | .hbm, ⟨33, _⟩ => ⟨S1x64, .f32⟩
  | .hbm, ⟨34, _⟩ => ⟨S100000x64, .f32⟩
  | .hbm, ⟨35, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.DropoutLinear.lean ====
/-
  The layer this kernel computes, on the extended reals: one entry of the result, and the two scalar laws that make
  the kernel's and the reference's spellings of the dropout factor one number.

  Both programs scale entry (P, k) of the aggregated features by a dropout factor, contract the scaled row against a
  column of the transposed weights, and add the bias. The factor is  mask / D  in the reference, D the dyadic
  7549747 / 2^23 (the binary32 nearest to 0.9), and  mask * c  in the kernel, c = 2^23 / 7549747 = 1 / D. The mask is
  the bit "the uniform draw reaches the threshold" read as 0 or 1: the reference reads the bit unsigned, the kernel
  widens it to a 32-bit word and reads that signed, and a single bit widened is 0 or 1 either way. Division by a nonzero
  real is multiplication by its reciprocal on every extended real, the infinities included, so the two factors agree
  with nothing assumed finite.
-/
import Idealize.ShloMosaic.PureOps.Ideal
import Idealize.ShloMosaic.Lib.ValueIdx

noncomputable section

namespace Cert.DropoutLinear

open Idealize.ShloMosaic Idealize.ShloMosaic.ValueIdx

/-! ## The dropout factor -/

/-- The divisor's word encodes the dyadic 7549747 / 2^23. -/
theorem divisor_value : Ideal.ofBits .f32 0x3F666666#32 = ((7549747 / 8388608 : ℝ) : EReal) := by
  simp [Ideal.ofBits, Ideal.ieee, -EReal.coe_mul]; norm_num

/-- Dividing by it multiplies by 2^23 / 7549747, whatever the dividend. -/
theorem div_divisor (x : EReal) :
    Ideal.div x (Ideal.ofBits .f32 0x3F666666#32) = x * ((8388608 / 7549747 : ℝ) : EReal) := by
  rw [divisor_value, Ideal.div_coe (by norm_num) x,
    show (1 / (7549747 / 8388608) : ℝ) = 8388608 / 7549747 by norm_num]

/-- One bit widened to a 32-bit word and read signed is the bit read unsigned. -/
theorem widened_bit (b : BitVec 1) : ((b.setWidth 32).toInt : ℝ) = (b.toNat : ℝ) := by
  have h : (b.setWidth 32).toInt = (b.toNat : ℤ) := by
    rcases BitVec.eq_zero_or_eq_one b with h | h <;> subst h <;> decide
  rw [h, Int.cast_natCast]

/-- The bit "u reaches the threshold", the threshold being the binary32 nearest to 0.1. -/
def reaches (u : EReal) : BitVec 1 :=
  FloatOps.cmpf (F := Ideal) (φ := .f32) .oge u (Ideal.ofBits .f32 0x3DCCCCCD#32)

/-- The dropout factor of a draw u: 2^23 / 7549747 where u reaches the threshold, 0 where it does not. -/
def keep (u : EReal) : EReal := (((reaches u).toNat : ℝ) : EReal) * ((8388608 / 7549747 : ℝ) : EReal)

/-- The factor as a quotient by the divisor. -/
theorem keep_of_div (u : EReal) :
    Ideal.div (((reaches u).toNat : ℝ) : EReal) (Ideal.ofBits .f32 0x3F666666#32) = keep u := div_divisor _

/-- The factor as a product with the reciprocal, the bit widened and read signed. -/
theorem keep_of_mul (u : EReal) :
    ((((reaches u).setWidth 32).toInt : ℝ) : EReal) * ((8388608 / 7549747 : ℝ) : EReal) = keep u := by
  rw [widened_bit]; rfl

/-! ## One entry of the result -/

/-- Entry (P, q): row P of the aggregated features, each entry scaled by the dropout factor of its draw, contracted
    against column q of the transposed weights, plus the bias at q. -/
def entry (agg u : (⟨2, ![100000, 128]⟩ : Shape).Idx → EReal) (wT : (⟨2, ![128, 64]⟩ : Shape).Idx → EReal)
    (bias : Fin 64 → EReal) (P : Fin 100000) (q : Fin 64) : EReal :=
  (∑ k : Fin 128, (agg (ix2 P k) * keep (u (ix2 P k))) * wT (ix2 k q)) + bias q

/-- The whole result array, index by index. -/
def result (agg u : (⟨2, ![100000, 128]⟩ : Shape).Idx → EReal) (wT : (⟨2, ![128, 64]⟩ : Shape).Idx → EReal)
    (bias : Fin 64 → EReal) : (⟨2, ![100000, 64]⟩ : Shape).Idx → EReal :=
  fun i => entry agg u wT bias (i 0) (i 1)

end Cert.DropoutLinear

end
-- ==== Proof.ReferenceEntry.lean ====
/-
  The reference computes the layer entry by entry.

  Its result is a sum  (scaled features) . (transposed weights) + bias  written as a whole-array contraction; read at
  the index (P, q) the contraction is the sum over k of entry (P, k) of the scaled features times entry (k, q) of the
  transposed weights, and the bias, broadcast along the rows, is read at q. Entry (P, k) of the scaled features is the
  aggregated feature times  mask / D , the quotient form of the dropout factor.
-/
import proofs.«159155_j3135326126431_2_alg».proof.Proof.Gen.ReferenceIdeal.Read
import proofs.«159155_j3135326126431_2_alg».proof.Proof.DropoutLinear

noncomputable section

namespace Cert.DropoutLinear

open Idealize.ShloMosaic Idealize.ShloMosaic.ValueIdx
open Cert.ReferenceIdeal Cert.ReferenceIdeal.Read

/-- The reference's factor array, at any index, is the dropout factor of the draw there. -/
theorem reference_factor (x4 : (⟨S100000x128, .f32⟩ : BufTy).Contents (Elt Ideal)) (j : S100000x128.Idx) :
    val_main_v17 (F := Ideal) x4 j = keep (x4 j) := by
  rw [val_main_v17_apply, val_main_v16_apply, val_main_cst_2_apply, val_main_v15_apply, val_main_v14_apply,
    val_main_v13_apply, val_main_cst_1_apply]
  exact keep_of_div (x4 j)

/-- The arithmetic of one entry, over arbitrary arrays: a sum over k of (scaled feature at (P, k)) times (weight at
    (k, q)), plus the bias at q — where the scaled-feature array is, entry by entry, the feature times the reference's
    factor. The index functions are the ones the contraction and the two bias broadcasts read their operands through. -/
theorem entry_of_stages (agg scaled : S100000x128.Idx → EReal) (wT : S128x64.Idx → EReal)
    (x4 : (⟨S100000x128, .f32⟩ : BufTy).Contents (Elt Ideal)) (x6 : (⟨S64, .f32⟩ : BufTy).Contents (Elt Ideal))
    (hscaled : ∀ j, scaled j = FloatOps.mulf (F := Ideal) (φ := .f32) (agg j) (val_main_v17 (F := Ideal) x4 j)) (P : Fin 100000) (q : Fin 64) :
    FloatOps.addf (F := Ideal) (φ := .f32) (∑ k : Fin 128, scaled (lidx_main_v20 (ix2 P q) k) * wT (ridx_main_v20 (ix2 P q) k))
        (x6 (idx_main_v21 (idx_main_v22 (ix2 P q))))
      = entry agg x4 wT (fun q => x6 (ix1 q)) P q := by
  have el : ∀ k : Fin 128, lidx_main_v20 (ix2 P q) k = ix2 P k := fun k => funext fun a => by
    match a with | ⟨0, _⟩ => rfl | ⟨1, _⟩ => rfl
  have er : ∀ k : Fin 128, ridx_main_v20 (ix2 P q) k = ix2 k q := fun k => funext fun a => by
    match a with | ⟨0, _⟩ => rfl | ⟨1, _⟩ => rfl
  have eb : idx_main_v21 (idx_main_v22 (ix2 P q)) = ix1 q := funext fun a => by
    match a with | ⟨0, _⟩ => rfl
  unfold entry
  rw [eb]
  refine congrArg (· + x6 (ix1 q)) (Finset.sum_congr rfl fun k _ => ?_)
  rw [el k, er k, hscaled, reference_factor]
  rfl

/-- The reference's result array is the layer's, as a function of the aggregated features (the sparse product, kept
    whole), the draws, the transposed weights and the bias. -/
theorem reference_result (x0 : (⟨S100000x128, .f32⟩ : BufTy).Contents (Elt Ideal))
    (x1 x2 : (⟨S1600000, .i32⟩ : BufTy).Contents (Elt Ideal)) (x3 : (⟨S1600000, .f32⟩ : BufTy).Contents (Elt Ideal))
    (x4 : (⟨S100000x128, .f32⟩ : BufTy).Contents (Elt Ideal)) (x5 : (⟨S64x128, .f32⟩ : BufTy).Contents (Elt Ideal))
    (x6 : (⟨S64, .f32⟩ : BufTy).Contents (Elt Ideal)) :
    val_main_v23 (F := Ideal) x0 x1 x2 x3 x4 x5 x6
      = result (val_main_v12 (F := Ideal) x0 x1 x2 x3) x4 (val_main_v19 (F := Ideal) x5) (fun q => x6 (ix1 q)) := by
  funext i
  obtain ⟨P, q, rfl⟩ : ∃ (P : Fin 100000) (q : Fin 64), i = ix2 P q := ⟨i 0, i 1, eq_ix2 i⟩
  rw [val_main_v23_apply, val_main_v20_apply, val_main_v22_apply, val_main_v21_apply]
  exact entry_of_stages (val_main_v12 (F := Ideal) x0 x1 x2 x3) (val_main_v18 (F := Ideal) x0 x1 x2 x3 x4)
    (val_main_v19 (F := Ideal) x5) x4 x6 (fun j => val_main_v18_apply x0 x1 x2 x3 x4 j) P q

end Cert.DropoutLinear

end
-- ==== Proof.KernelEntry.lean ====
/-
  The kernel body computes the layer entry by entry, on one block of rows.

  From a block of draws, the matching block of aggregated features, the transposed weights and the bias row, the body
  forms  features * (mask * c) , multiplies that [10000, 128] block into the [128, 64] weights starting from zero, and
  adds the bias row to every row. Read at entry (p, q) of the block: the product is the sum over k of entry (p, k) of the
  scaled features times entry (k, q) of the weights (row p, column q of a plain matrix product, the one contracted axis
  enumerated by k), and the bias row is read at q. The factor  mask * c  is the product form of the dropout factor, c the
  value 2^23 / 7549747 the kernel's constant denotes.
-/
import proofs.«159155_j3135326126431_2_alg».proof.Proof.Gen.KernelIdeal.Skeleton
import proofs.«159155_j3135326126431_2_alg».proof.Proof.DropoutLinear
import Idealize.ShloMosaic.Lib.ValueLayout
import Idealize.ShloMosaic.PureOps.Ideal.Laws
import Idealize.ShloMosaic.PureOps.IdealRules

noncomputable section

namespace Cert.DropoutLinear

open Idealize.ShloMosaic Idealize.ShloMosaic.ValueIdx
open Cert.KernelIdeal Cert.KernelIdeal.Gen

/-- The kernel's scale constant denotes 2^23 / 7549747. -/
theorem scale_value :
    Named.named (F := Ideal) Cert.KernelIdeal.κ "inv_keep" (φ := .f32) 0x3F8E38E4#32 = ((8388608 / 7549747 : ℝ) : EReal) :=
  IdealRules.named_const.ideal_named_scalar _ _ _ _ rfl

/-- The block product's dimensions: [10000, 128] times [128, 64], the 128-axis contracted. -/
abbrev blockProduct : DotDims S10000x128 S128x64 S10000x64 := dot_S10000x128_S128x64_S10000x64_1_0_0_1_n_n

/-- At result entry (p, q) and contraction index k the left factor is read at (p, k) … -/
theorem left_at (p : Fin 10000) (q : Fin 64) (k : Fin 128) :
    blockProduct.lhsIdx (ix2 p q) ((contrEquiv1 blockProduct 128 rfl rfl).symm k) = ix2 p k := by
  have hk := contrEquiv1_symm_val blockProduct 128 rfl rfl k
  funext a
  apply Fin.ext
  match a with
  | ⟨0, _⟩ =>
    show (blockProduct.lhsIdx (ix2 p q) ((contrEquiv1 blockProduct 128 rfl rfl).symm k) 0).val = p.val
    unfold DotDims.lhsIdx
    rw [dif_neg (show ¬(0 : Fin S10000x128.rank) ∈ blockProduct.lhsBatch by decide),
      dif_pos (show (0 : Fin S10000x128.rank) ∈ blockProduct.lhsNonContracting by decide)]
    rfl
  | ⟨1, _⟩ => exact (blockProduct.lhsIdx_val_of_single rfl (ix2 p q) _).trans hk

/-- … and the right factor at (k, q). -/
theorem right_at (p : Fin 10000) (q : Fin 64) (k : Fin 128) :
    blockProduct.rhsIdx (ix2 p q) ((contrEquiv1 blockProduct 128 rfl rfl).symm k) = ix2 k q := by
  have hk := contrEquiv1_symm_val blockProduct 128 rfl rfl k
  funext a
  apply Fin.ext
  match a with
  | ⟨0, _⟩ => exact (blockProduct.rhsIdx_val_of_single rfl (ix2 p q) _).trans hk
  | ⟨1, _⟩ =>
    show (blockProduct.rhsIdx (ix2 p q) ((contrEquiv1 blockProduct 128 rfl rfl).symm k) 1).val = q.val
    unfold DotDims.rhsIdx
    rw [dif_neg (show ¬(1 : Fin S128x64.rank) ∈ blockProduct.rhsBatch by decide),
      dif_pos (show (1 : Fin S128x64.rank) ∈ blockProduct.rhsNonContracting by decide)]
    rfl

/-- Entry (p, q) of what the body stores, from its four loaded blocks: draws u, features a, transposed weights w, bias
    row b. -/
theorem kernel_entry (u a : Vec Ideal S10000x128 .f32) (w : Vec Ideal S128x64 .f32) (b : Vec Ideal S1x64 .f32)
    (p : Fin 10000) (q : Fin 64) :
    k0_pay1 (F := Ideal) u a w b (ix2 p q)
      = (∑ k : Fin 128, (a (ix2 p k) * keep (u (ix2 p k))) * w (ix2 k q)) + b (ix2 (0 : Fin 1) q) := by
  unfold k0_pay1
  simp only [shapeCast_self]
  refine (addf_apply _ _ _).trans ?_
  refine congrArg₂ (· + ·) ?_ (broadcastTo_1b_ab_apply b _ p q)
  refine (Ideal.matmul_constant_zero_apply blockProduct none _ w (ix2 p q)).trans ?_
  rw [← Equiv.sum_comp (contrEquiv1 blockProduct 128 rfl rfl).symm]
  refine Finset.sum_congr rfl fun k _ => ?_
  rw [left_at, right_at]
  refine congrArg (· * w (ix2 k q)) ?_
  show a (ix2 p k) * (((((reaches (u (ix2 p k))).setWidth 32).toInt : ℝ) : EReal)
      * Named.named (F := Ideal) Cert.KernelIdeal.κ "inv_keep" (φ := .f32) 0x3F8E38E4#32) = _
  rw [scale_value, keep_of_mul]

/-- The same entry when the blocks are pieces of whole arrays: the feature and draw blocks are rows r, r + 1, … of the
    arrays A and U (all 128 columns), the weights and the bias row are whole. Entry y of what the body stores is then
    entry i of the layer's result over the whole arrays, i being y moved down by r rows. -/
theorem block_entry (A U : S100000x128.Idx → EReal) (WT : S128x64.Idx → EReal) (B : S1x64.Idx → EReal)
    (u a : Vec Ideal S10000x128 .f32) (w : Vec Ideal S128x64 .f32) (b : Vec Ideal S1x64 .f32)
    (y : S10000x64.Idx) (i : S100000x64.Idx) (r : Nat)
    (hi0 : (i 0).val = r + (y 0).val) (hi1 : (i 1).val = (y 1).val)
    (ha : ∀ (x : S10000x128.Idx) (j : S100000x128.Idx), (j 0).val = r + (x 0).val → (j 1).val = (x 1).val → a x = A j)
    (hu : ∀ (x : S10000x128.Idx) (j : S100000x128.Idx), (j 0).val = r + (x 0).val → (j 1).val = (x 1).val → u x = U j)
    (hw : w = WT) (hb : b = B) :
    k0_pay1 (F := Ideal) u a w b y = result A U WT (fun q => B (ix2 (0 : Fin 1) q)) i := by
  obtain ⟨p, q, rfl⟩ : ∃ (p : Fin 10000) (q : Fin 64), y = ix2 p q := ⟨y 0, y 1, eq_ix2 y⟩
  obtain ⟨P, q', rfl⟩ : ∃ (P : Fin 100000) (q' : Fin 64), i = ix2 P q' := ⟨i 0, i 1, eq_ix2 i⟩
  obtain rfl : q = q' := (Fin.ext hi1).symm
  subst hw hb
  rw [kernel_entry]
  show _ = entry A U w (fun q => b (ix2 (0 : Fin 1) q)) P q
  unfold entry
  refine congrArg (· + b (ix2 (0 : Fin 1) q)) (Finset.sum_congr rfl fun k _ => ?_)
  rw [ha (ix2 p k) (ix2 P k) hi0 rfl, hu (ix2 p k) (ix2 P k) hi0 rfl]

end Cert.DropoutLinear

end
-- ==== Proof.WindowArrays.lean ====
/-
  The three arrays the host prepares before the launch, as the launch finds them.

  The aggregated features are the sparse product of the graph with the input features: a gather of feature rows by
  column index (negative indices wrapped), each scaled by its edge value, scatter-added by row index into zeros. The
  reference forms the same array by the same operations, so it is carried whole and never opened. The weights reach the
  launch transposed, and the bias as a one-row matrix whose entry (0, q) is the bias at q.
-/
import proofs.«159155_j3135326126431_2_alg».proof.Proof.Gen.KernelIdeal.Frame
import proofs.«159155_j3135326126431_2_alg».proof.Proof.Gen.ReferenceIdeal.Read
import Idealize.ShloMosaic.Lib.StableHlo.Run
import Idealize.ShloMosaic.Lib.ValueLayout

noncomputable section

namespace Cert.DropoutLinear

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The aggregated features at the launch are the reference's sparse product of the same four arguments. -/
theorem launch_features (c : Dev nD) : (V m c main_v12 : S100000x128.Idx → EReal)
    = Cert.ReferenceIdeal.Read.val_main_v12 (F := Ideal) (m ((c : Thread nD τ).loc main_arg0))
        (m ((c : Thread nD τ).loc main_arg1)) (m ((c : Thread nD τ).loc main_arg2)) (m ((c : Thread nD τ).loc main_arg3)) := by
  dsimp only [Gen.V, Gen.hostOps0]; after_results; rfl

/-- The weights at the launch are the reference's transposed weights. -/
theorem launch_weights (c : Dev nD) : (V m c main_v13 : S128x64.Idx → EReal)
    = Cert.ReferenceIdeal.Read.val_main_v19 (F := Ideal) (m ((c : Thread nD τ).loc main_arg5)) := by
  dsimp only [Gen.V, Gen.hostOps0]; after_results; rfl

/-- The bias row at the launch, read at (0, q), is the bias at q. -/
theorem launch_bias (c : Dev nD) (q : Fin 64) : (V m c main_v14 : S1x64.Idx → EReal) (ix2 (0 : Fin 1) q)
    = (m ((c : Thread nD τ).loc main_arg6) : S64.Idx → EReal) (ix1 q) := by
  have e : (V m c main_v14 : S1x64.Idx → EReal)
      = shapeCast S1x64 (m ((c : Thread nD τ).loc main_arg6) : S64.Idx → EReal) shapeCasts_S64_S1x64 := by
    dsimp only [Gen.V, Gen.hostOps0]; after_results; rfl
  rw [e]
  exact shapeCast_a_1a_apply _ _ 0 q

end Cert.DropoutLinear

end
-- ==== Proof.RowBlocks.lean ====
/-
  From row blocks to the whole array.

  The launch runs the body at ten grid points. At point t the feature and draw windows hold rows 10000 t … 10000 t + 9999
  of their arrays (all 128 columns), the weight and bias windows hold their whole arrays, and the output window writes
  back rows 10000 t … 10000 t + 9999 of the result (all 64 columns). So what point t writes back is block t of ONE
  function of the arrays as the launch finds them — the layer's result — and since row r lies in block r / 10000, the ten
  blocks cover the result array: after the run it holds that function everywhere.
-/
import proofs.«159155_j3135326126431_2_alg».proof.Proof.Gen.KernelIdeal.Value
import proofs.«159155_j3135326126431_2_alg».proof.Proof.KernelEntry
import Idealize.ShloMosaic.Lib.Pipeline.Value

noncomputable section

namespace Cert.DropoutLinear

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The body loads and stores whole blocks: from offset (0, 0). -/
theorem origin : (![0, 0] : Fin 2 → Nat) = fun _ => 0 := funext fun a => by fin_cases a <;> rfl

/-- Where each window's block sits at grid point t, in blocks: the features, the draws and the output move down one
    block per point, the weights and the bias stay; no window moves sideways. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The layer's result over the arrays as the launch finds them. -/
def launchResult (c : Dev nD) : S100000x64.Idx → EReal :=
  result (V m c main_v12) (V m c main_arg4) (V m c main_v13)
    (fun q => (V m c main_v14 : S1x64.Idx → EReal) (ix2 (0 : Fin 1) q))

/-! ## Each input block as a piece of its array -/

/-- The feature block at point t, at x, is the feature array 10000 t rows further down. -/
theorem features_block (c : Dev nD) (t : Fin cfg0.N) (x : S10000x128.Idx) (j : S100000x128.Idx)
    (h0 : (j 0).val = 10000 * t.val + (x 0).val) (h1 : (j 1).val = (x 1).val) :
    (iblk m c 0 t : Vec Ideal S10000x128 .f32) x = (V m c main_v12 : S100000x128.Idx → EReal) j := by
  obtain ⟨e0, e1, -⟩ := block_positions t
  unfold iblk
  rewrite [View.read_apply]
  refine (cast_eq _ _).trans ?_
  refine congrArg (V m c main_v12 : S100000x128.Idx → EReal) (funext fun a => Fin.ext ?_)
  match a with
  | ⟨0, _⟩ => show win0_0.index t (0 : Fin 2) * 10000 + 1 * (x 0).val = (j 0).val; rw [e0, h0]; omega
  | ⟨1, _⟩ => show win0_0.index t (1 : Fin 2) * 128 + 1 * (x 1).val = (j 1).val; rw [e1, h1]; omega

/-- The draw block at point t, at x, is the draw array 10000 t rows further down. -/
theorem draws_block (c : Dev nD) (t : Fin cfg0.N) (x : S10000x128.Idx) (j : S100000x128.Idx)
    (h0 : (j 0).val = 10000 * t.val + (x 0).val) (h1 : (j 1).val = (x 1).val) :
    (iblk m c 1 t : Vec Ideal S10000x128 .f32) x = (V m c main_arg4 : S100000x128.Idx → EReal) j := by
  obtain ⟨-, -, e0, e1, -⟩ := block_positions t
  unfold iblk
  rewrite [View.read_apply]
  refine (cast_eq _ _).trans ?_
  refine congrArg (V m c main_arg4 : S100000x128.Idx → EReal) (funext fun a => Fin.ext ?_)
  match a with
  | ⟨0, _⟩ => show win0_1.index t (0 : Fin 2) * 10000 + 1 * (x 0).val = (j 0).val; rw [e0, h0]; omega
  | ⟨1, _⟩ => show win0_1.index t (1 : Fin 2) * 128 + 1 * (x 1).val = (j 1).val; rw [e1, h1]; omega

/-- The weight block at every point is the whole transposed-weight array. -/
theorem weights_block (c : Dev nD) (t : Fin cfg0.N) :
    (iblk m c 2 t : Vec Ideal S128x64 .f32) = (V m c main_v13 : S128x64.Idx → EReal) := by
  obtain ⟨-, -, -, -, e0, e1, -⟩ := block_positions t
  funext x
  unfold iblk
  rewrite [View.read_apply]
  refine (cast_eq _ _).trans ?_
  refine congrArg (V m c main_v13 : S128x64.Idx → EReal) (funext fun a => Fin.ext ?_)
  match a with
  | ⟨0, _⟩ => show win0_2.index t (0 : Fin 2) * 128 + 1 * (x 0).val = (x 0).val; rw [e0]; omega
  | ⟨1, _⟩ => show win0_2.index t (1 : Fin 2) * 64 + 1 * (x 1).val = (x 1).val; rw [e1]; omega

/-- The bias block at every point is the whole bias row. -/
theorem bias_block (c : Dev nD) (t : Fin cfg0.N) :
    (iblk m c 3 t : Vec Ideal S1x64 .f32) = (V m c main_v14 : S1x64.Idx → EReal) := by
  obtain ⟨-, -, -, -, -, -, e0, e1, -⟩ := block_positions t
  funext x
  unfold iblk
  rewrite [View.read_apply]
  refine (cast_eq _ _).trans ?_
  refine congrArg (V m c main_v14 : S1x64.Idx → EReal) (funext fun a => Fin.ext ?_)
  match a with
  | ⟨0, _⟩ => show win0_3.index t (0 : Fin 2) * 1 + 1 * (x 0).val = (x 0).val; rw [e0]; omega
  | ⟨1, _⟩ => show win0_3.index t (1 : Fin 2) * 64 + 1 * (x 1).val = (x 1).val; rw [e1]; omega

/-! ## What a point writes back, and the array after the run -/

/-- What the body leaves in the output block, from any four input blocks: its one store covers the block, so the block
    holds that store's value. -/
theorem stored_block (x0 x1 : Vec Ideal S10000x128 .f32) (x2 : Vec Ideal S128x64 .f32) (x3 : Vec Ideal S1x64 .f32) :
    out0_4 (F := Ideal) x0 x1 x2 x3 = k0_pay1 (F := Ideal) x1 x0 x2 x3 := by
  unfold out0_4
  rw [View.canon_unit_zero origin]
  simp only [View.ld_unit_zero (S := S10000x128) origin, View.ld_unit_zero (S := S128x64) origin,
    View.ld_unit_zero (S := S1x64) origin]

/-- The output block is written back whole: no row of it overhangs the array. -/
theorem written_whole (t : Fin cfg0.N) (X : Vec Ideal S10000x64 .f32)
    (y : ((cfg0.win 4).xblock (grid0.coords t)).Idx) : (cfg0.win 4).cut (grid0.coords t) X y = X y := rfl

/-- Point t writes back block t of the layer's result. -/
theorem point_writes (c : Dev nD) (t : Fin cfg0.N) :
    (dats m 0 c).flushed 4 t = ((cfg0.win 4).blk t).view.read (Elt Ideal) (launchResult m c) := by
  obtain ⟨-, -, -, -, -, -, -, -, e0, e1⟩ := block_positions t
  rewrite [Cert.KernelIdeal.Value.flushed4]
  funext y
  rewrite [View.read_apply]
  refine (written_whole t _ y).trans (Eq.trans ?_ (cast_eq _ _).symm)
  refine (congrFun (stored_block (iblk m c 0 t) (iblk m c 1 t) (iblk m c 2 t) (iblk m c 3 t)) y).trans ?_
  unfold launchResult
  refine block_entry (V m c main_v12) (V m c main_arg4) (V m c main_v13) (V m c main_v14)
    (iblk m c 1 t) (iblk m c 0 t) (iblk m c 2 t) (iblk m c 3 t) y (((cfg0.win 4).blk t).view.emb y) (10000 * t.val) ?_ ?_
    (fun x j h0 h1 => features_block m c t x j h0 h1) (fun x j h0 h1 => draws_block m c t x j h0 h1)
    (weights_block m c t) (bias_block m c t)
  · show win0_4.index t (0 : Fin 2) * 10000 + 1 * (y 0).val = 10000 * t.val + (y 0).val
    rw [e0]; omega
  · show win0_4.index t (1 : Fin 2) * 64 + 1 * (y 1).val = (y 1).val
    rw [e1]; omega

/-- An index of the result array is in point t's block iff each coordinate is in the block's range on its axis. -/
theorem in_block (t : Fin cfg0.N) (i : S100000x64.Idx) :
    i ∈ ((cfg0.win 4).blk t).view.set ↔ ∀ a : Fin 2, win0_4.index t a * S10000x64.size a ≤ (i a).val
      ∧ (i a).val < win0_4.index t a * S10000x64.size a + S10000x64.size a := by
  show i ∈ ((View.whole main_v15).slice (win0_4.rect t)).set ↔ _
  rw [View.set_slice_whole, Rect.mem_set_unit]
  exact Iff.rfl

/-- Every index of the result array is in some point's block: row r is in block r / 10000. -/
theorem rows_covered (i : S100000x64.Idx) :
    ∃ t : Fin cfg0.N, (cfg0.win 4).flush t = true ∧ i ∈ ((cfg0.win 4).blk t).view.set := by
  have hN : cfg0.N = 10 := N_0
  have hi0 : (i 0).val < 100000 := (i 0).isLt
  have hi1 : (i 1).val < 64 := (i 1).isLt
  have ht : (i 0).val / 10000 < cfg0.N := by rw [hN]; omega
  obtain ⟨-, -, -, -, -, -, -, -, e0, e1⟩ := block_positions ⟨(i 0).val / 10000, ht⟩
  have e0' : win0_4.index ⟨(i 0).val / 10000, ht⟩ (0 : Fin 2) = (i 0).val / 10000 := e0
  refine ⟨⟨(i 0).val / 10000, ht⟩, flush0_4 _, ?_⟩
  rw [in_block]
  intro a
  match a with
  | ⟨0, _⟩ =>
    show win0_4.index ⟨(i 0).val / 10000, ht⟩ (0 : Fin 2) * 10000 ≤ (i 0).val
      ∧ (i 0).val < win0_4.index ⟨(i 0).val / 10000, ht⟩ (0 : Fin 2) * 10000 + 10000
    rw [e0']; omega
  | ⟨1, _⟩ =>
    show win0_4.index ⟨(i 0).val / 10000, ht⟩ (1 : Fin 2) * 64 ≤ (i 1).val
      ∧ (i 1).val < win0_4.index ⟨(i 0).val / 10000, ht⟩ (1 : Fin 2) * 64 + 64
    rw [e1]; omega

/-- So after the run the result array holds the layer's result of the arrays as the launch found them. -/
theorem result_array (c : Dev nD) : (dats m 0 c).arrAt 4 cfg0.N = launchResult m c :=
  (dats m 0 c).arrAt_eq_of_cover 4 (launchResult m c) (fun t _ => point_writes m c t) rows_covered

/-- The kernel's run, read: the result array at the layer's result, the arguments unchanged. -/
theorem kernel_run : θ_run defs (onTc (τ := τ) (main (F := Ideal))) ⟨m, fun _ => 0, ρ⟩ fun r => ∀ c : Dev nD,
      r.2.mem ((c : Thread nD τ).loc main_v15) = launchResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (result_array m c), (h c).2⟩)
    (Cert.KernelIdeal.Value.run_blocks m ρ)

end Cert.DropoutLinear

end
-- ==== Proof.lean ====
/-
  A graph-convolution layer with dropout: the kernel and its reference compute the same array on the extended reals.

  Both programs form the aggregated features (the sparse product of the graph with the input features) by the same
  host operations. The reference then scales each entry by  mask / D , D the binary32 nearest to 0.9, multiplies by the
  transposed weights and adds the bias, all on whole arrays. The kernel does the scaling, the product and the bias
  inside a launch over ten blocks of 10000 rows, with the scale spelt as one constant c where the reference divides by
  D. Read as the reciprocal 2^23 / 7549747 of the reference's divisor (the relation both sources write), c makes
  mask * c  and  mask / D  the same extended real for every mask; the mask itself is the same bit on both sides. With
  that, entry (P, q) of either result is

      sum over k of (aggregated[P, k] * factor(draw[P, k])) * weightsT[k, q]  +  bias[q],

  the kernel's by its body read at an entry of a block and the blocks tiling the rows, the reference's by its
  operations read at an index. No step needs an input to be finite.

  The frames of the two kernel programs are their generated certificates; the reference's is its run with the result
  dropped. The kernel's idealization changed one thing, the reading of c, and that is the one conjunct it owes.
-/
import proofs.«159155_j3135326126431_2_alg».proof.Defs
import proofs.«159155_j3135326126431_2_alg».proof.Proof.Gen.Kernel
import proofs.«159155_j3135326126431_2_alg».proof.Proof.Gen.Kernel.Skeleton
import proofs.«159155_j3135326126431_2_alg».proof.Proof.Gen.Kernel.Launch
import proofs.«159155_j3135326126431_2_alg».proof.Proof.Gen.Kernel.Points
import proofs.«159155_j3135326126431_2_alg».proof.Proof.Gen.Kernel.Frame
import proofs.«159155_j3135326126431_2_alg».proof.Proof.Gen.KernelIdeal
import proofs.«159155_j3135326126431_2_alg».proof.Proof.Gen.KernelIdeal.Skeleton
import proofs.«159155_j3135326126431_2_alg».proof.Proof.Gen.KernelIdeal.Launch
import proofs.«159155_j3135326126431_2_alg».proof.Proof.Gen.KernelIdeal.Points
import proofs.«159155_j3135326126431_2_alg».proof.Proof.Gen.KernelIdeal.Frame
import proofs.«159155_j3135326126431_2_alg».proof.Proof.Gen.ReferenceIdeal
import proofs.«159155_j3135326126431_2_alg».proof.Proof.Gen.KernelIdeal.Value
import proofs.«159155_j3135326126431_2_alg».proof.Proof.Gen.ReferenceIdeal.Run
import proofs.«159155_j3135326126431_2_alg».proof.Proof.Gen.ReferenceIdeal.Read
import proofs.«159155_j3135326126431_2_alg».proof.Proof.Gen.Pre_finite_inputs
import Idealize.ShloMosaic.Adequacy
import Idealize.ShloMosaic.Init
import proofs.«159155_j3135326126431_2_alg».proof.Proof.DropoutLinear
import proofs.«159155_j3135326126431_2_alg».proof.Proof.ReferenceEntry
import proofs.«159155_j3135326126431_2_alg».proof.Proof.KernelEntry
import proofs.«159155_j3135326126431_2_alg».proof.Proof.WindowArrays
import proofs.«159155_j3135326126431_2_alg».proof.Proof.RowBlocks

noncomputable section

namespace Cert.Proof

open Idealize.ShloMosaic Idealize.ShloMosaic.TcCoe Idealize.SL.Sem Idealize.ShloMosaic.ValueIdx
open Cert.DropoutLinear

/-- The layer's result over the arrays as the launch finds them, in terms of the kernel program's arguments: the
    aggregated features are the sparse product of the first four, the draws are the fifth as it is, the weights the
    sixth transposed, the bias the seventh. -/
theorem launch_result (m : (ℓ : Loc Cert.KernelIdeal.nD Cert.KernelIdeal.τ Cert.KernelIdeal.sig) → Buf (Elt Ideal) ℓ)
    (c : Dev Cert.KernelIdeal.nD) :
    launchResult m c
      = result (Cert.ReferenceIdeal.Read.val_main_v12 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2))
            (m ((c : Thread Cert.KernelIdeal.nD Cert.KernelIdeal.τ).loc Cert.KernelIdeal.main_arg3)))
          (m ((c : Thread Cert.KernelIdeal.nD Cert.KernelIdeal.τ).loc Cert.KernelIdeal.main_arg4))
          (Cert.ReferenceIdeal.Read.val_main_v19 (F := Ideal)
            (m ((c : Thread Cert.KernelIdeal.nD Cert.KernelIdeal.τ).loc Cert.KernelIdeal.main_arg5)))
          (fun q => (m ((c : Thread Cert.KernelIdeal.nD Cert.KernelIdeal.τ).loc Cert.KernelIdeal.main_arg6)
            : Cert.KernelIdeal.S64.Idx → EReal) (ix1 q)) := by
  unfold launchResult
  rewrite [launch_features, launch_weights, Cert.KernelIdeal.Gen.V_main_arg4]
  exact congrArg (result _ _ _) (funext fun q => launch_bias m c q)

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization's one change: the scale constant read as 2^23 / 7549747. -/
theorem preserves : Cert.preserves_Kernel_KernelIdeal :=
  IdealRules.named_const.statement Cert.KernelIdeal.κ "inv_keep" .f32 0x3F8E38E4#32
    ((8388608 / 7549747 : ℝ) : EReal) rfl

/-- From memories that agree on the arguments both programs end with the layer's result of those arguments. -/
theorem algebraic : Cert.algebraic_KernelIdeal_ReferenceIdeal := by
  intro m ρ m' ρ' _ hagree
  refine ⟨fun c => result (Cert.ReferenceIdeal.Read.val_main_v12 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2))
            (m ((c : Thread Cert.KernelIdeal.nD Cert.KernelIdeal.τ).loc Cert.KernelIdeal.main_arg3)))
          (m ((c : Thread Cert.KernelIdeal.nD Cert.KernelIdeal.τ).loc Cert.KernelIdeal.main_arg4))
          (Cert.ReferenceIdeal.Read.val_main_v19 (F := Ideal)
            (m ((c : Thread Cert.KernelIdeal.nD Cert.KernelIdeal.τ).loc Cert.KernelIdeal.main_arg5)))
          (fun q => (m ((c : Thread Cert.KernelIdeal.nD Cert.KernelIdeal.τ).loc Cert.KernelIdeal.main_arg6)
            : Cert.KernelIdeal.S64.Idx → EReal) (ix1 q)), ?_, ?_⟩
  · exact (θ_run Cert.KernelIdeal.defs _ _).mono
      (fun r h c => ⟨(h c).1.trans (launch_result m c), (h c).2⟩) (kernel_run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [Cert.ReferenceIdeal.Read.val_main_v23_eq, reference_result, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
